-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S8192x2048 .f32) (main_arg2 : FVec F S8192 .f32) (main_arg3 : FVec F S2048x8192 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S1x2048 : Shape := ⟨2, ![1, 2048]⟩
abbrev S512x2048 : Shape := ⟨2, ![512, 2048]⟩
abbrev S1x512 : Shape := ⟨2, ![1, 512]⟩
abbrev S2048x512 : Shape := ⟨2, ![2048, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | .hbm, ⟨8, _⟩ => ⟨S1x8192, .f32⟩
  | .hbm, ⟨9, _⟩ => ⟨S1x2048, .f32⟩
  | .hbm, ⟨10, _⟩ => ⟨S8192x2048, .f32⟩
  | .hbm, ⟨11, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg1 : BitVec 32 := BitVec.ofNat 32 (i 1).val
  let c0_i32_10 : BitVec 32 := 0#32
  let v20 : BitVec 1 := Scalar.cmpi .sgt arg1 c0_i32_10
  let v21 : BitVec 32 := Scalar.extui v20
  let c0_i32_11 : BitVec 32 := 0#32
  let v22 : BitVec 1 := Scalar.cmpi .ne v21 c0_i32_11
  v22

def k0_cond3 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S8192_S1x8192 : S8192.ShapeCasts S1x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4x2048x8192 : Shape := ⟨3, ![4, 2048, 8192]⟩
abbrev S1x1x8192 : Shape := ⟨3, ![1, 1, 8192]⟩
abbrev S_ : Shape := ⟨0, ![]⟩
abbrev S1x1x2048 : Shape := ⟨3, ![1, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S4x2048x8192, .f32⟩
  | .hbm, ⟨6, _⟩ => ⟨S1x1x8192, .f32⟩
  | .hbm, ⟨7, _⟩ => ⟨S4x2048x8192, .f32⟩
  | .hbm, ⟨8, _⟩ => ⟨S4x2048x8192, .f32⟩
  | .hbm, ⟨9, _⟩ => ⟨S_, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S4x2048x2048, .f32⟩
  | .hbm, ⟨14, _⟩ => ⟨S1x1x2048, .f32⟩
  | .hbm, ⟨15, _⟩ => ⟨S4x2048x2048, .f32⟩
  | .hbm, ⟨16, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.BitsBody.Cases.lean ====
/-
  The three control cases of the fused two-layer kernel's body, decided over its 16 × 16 grid.

  A grid point is (row block, hidden block); points are visited row block by row block, the hidden block
  fastest, so point `t` is at hidden block `t % 16`. The body's three conditionals test the hidden block only:
  it is the first (`= 0`: the output block is overwritten), a later one (`> 0`: the contribution is added
  to the output block), the last (`= 15`: the second bias is added). Exactly one of the first two holds at
  every point, so the output block is stored at every point of the grid.
-/
import proofs.«177328_j22694607192381_2_alg».proof.Proof.Gen.Kernel.Frame
import proofs.«177328_j22694607192381_2_alg».proof.Proof.Gen.Kernel.Skeleton
set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

/-- The first conditional holds exactly at the first hidden block of each row block. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second holds exactly at the later hidden blocks. -/
theorem hcond2 : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- The third holds exactly at the last hidden block. -/
theorem hcond3 : ∀ t : Fin cfg0.N, k0_cond3 (grid0.coords t) = 1#1 ↔ t.val % 16 = 15 :=
  (by decide +kernel : ∀ t : Fin grid0.N, k0_cond3 (grid0.coords t) = 1#1 ↔ t.val % 16 = 15)

/-- The output block is stored at every point: one of the first two conditionals always holds. -/
theorem live5 : ∀ i : grid0.Coords, cfg0.idle 5 i = false := by
  decide +kernel

/-- One staging buffer of the output window, through which its contents are stated. -/
abbrev VO5 : View sig .tc .vmem S512x2048 .f32 := (Memref.whole cc0_stg5_0 : Memref sig .tc .vmem S512x2048 .f32).view

/-- Each window's current staging buffer at point `t`, as the pipeline passes it to the body, and its wholeness. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)

end Cert.Kernel.Body
end
-- ==== Proof.BitsBody.RunFirst.lean ====
/-
  The body at the FIRST hidden block of a row block: the contribution of this hidden block overwrites the output block
  (whatever the buffer held is loaded and dropped).
-/
import proofs.«177328_j22694607192381_2_alg».proof.Proof.BitsBody.Cases
set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at anything — the body runs to a
    continuation that holds the inputs' as they were and the output's with those pieces written. -/
noncomputable def kernelRunFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body
end
-- ==== Proof.BitsBody.RunLater.lean ====
/-
  The body at a LATER hidden block that is not the last: the contribution of this hidden block is added to what the
  output block holds.
-/
import proofs.«177328_j22694607192381_2_alg».proof.Proof.BitsBody.RunFirst
set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at its running contents — the body runs to a
    continuation that holds the inputs' as they were and the output's with those pieces written. -/
noncomputable def kernelRunLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body
end
-- ==== Proof.BitsBody.RunLast.lean ====
/-
  The body at the LAST hidden block: the contribution of this hidden block is added to what the output block holds,
  and then the second bias, one row broadcast over the block's rows, is added to that.
-/
import proofs.«177328_j22694607192381_2_alg».proof.Proof.BitsBody.RunLater
set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at its running contents — the body runs to a
    continuation that holds the inputs' as they were and the output's with those pieces written. -/
noncomputable def kernelRunLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body
end
-- ==== Proof.BitsBody.Frame.lean ====
/-
  The frame of the fused two-layer kernel: it runs to the end, faults nowhere and leaves its arguments as they were.

  The output block of a row block stays in one staging buffer across that row block's sixteen hidden blocks and is
  written back after the last. What the buffer holds after each point is therefore defined by recursion on the point:
  at the first hidden block what the body's one store leaves; at a later one what the body leaves when it finds there
  what the point before left. The proof data name the inputs' buffers at their blocks and the output's at that
  recursion; the body obligation is the run of the body in the point's case.
-/
import proofs.«177328_j22694607192381_2_alg».proof.Proof.BitsBody.RunLast
import Idealize.ShloMosaic.Lib.Pipeline.Frame
set_option maxRecDepth 16384

noncomputable section

namespace Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first hidden block the body's one store is of the whole block, so its pieces cover it. -/
theorem coverFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (y : S512x2048.Idx) :
    ∃ pc ∈ (kernelRunFirst c i arg2 harg2 arg3 harg3 arg4 harg4 arg5 harg5 arg6 harg6 arg7 harg7 hc1 hc2 hc3 x0 x1 x2 x3 x4).1, y ∈ pc.1.set :=
  View.cover_of_tiledL (kernelRunFirst c i arg2 harg2 arg3 harg3 arg4 harg4 arg5 harg5 arg6 harg6 arg7 harg7 hc1 hc2 hc3 x0 x1 x2 x3 x4).1 S512x2048.size (by sl_kernel_rfl) y

/-- What the body leaves in the output's staging buffer at a first hidden block: its pieces read back. -/
def outFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) : Vec F S512x2048 .f32 :=
  VO5.read (Elt F) (VO5.writes (Elt F) VO5.junk (kernelRunFirst c i arg2 harg2 arg3 harg3 arg4 harg4 arg5 harg5 arg6 harg6 arg7 harg7 hc1 hc2 hc3 x0 x1 x2 x3 x4).1)

/-- At a later hidden block the body's one store is of the whole block. -/
theorem coverLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) (y : S512x2048.Idx) :
    ∃ pc ∈ (kernelRunLater c i arg2 harg2 arg3 harg3 arg4 harg4 arg5 harg5 arg6 harg6 arg7 harg7 hc1 hc2 hc3 x0 x1 x2 x3 x4 xo).1, y ∈ pc.1.set :=
  View.cover_of_tiledL (kernelRunLater c i arg2 harg2 arg3 harg3 arg4 harg4 arg5 harg5 arg6 harg6 arg7 harg7 hc1 hc2 hc3 x0 x1 x2 x3 x4 xo).1 S512x2048.size (by sl_kernel_rfl) y

/-- What the body leaves in the output's staging buffer at a later hidden block that is not the last. -/
def outLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) : Vec F S512x2048 .f32 :=
  VO5.read (Elt F) (VO5.writes (Elt F) VO5.junk (kernelRunLater c i arg2 harg2 arg3 harg3 arg4 harg4 arg5 harg5 arg6 harg6 arg7 harg7 hc1 hc2 hc3 x0 x1 x2 x3 x4 xo).1)

/-- At the last hidden block both of the body's stores are of the whole block. -/
theorem coverLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) (y : S512x2048.Idx) :
    ∃ pc ∈ (kernelRunLast c i arg2 harg2 arg3 harg3 arg4 harg4 arg5 harg5 arg6 harg6 arg7 harg7 hc1 hc2 hc3 x0 x1 x2 x3 x4 xo).1, y ∈ pc.1.set :=
  View.cover_of_tiledL (kernelRunLast c i arg2 harg2 arg3 harg3 arg4 harg4 arg5 harg5 arg6 harg6 arg7 harg7 hc1 hc2 hc3 x0 x1 x2 x3 x4 xo).1 S512x2048.size (by sl_kernel_rfl) y

/-- What the body leaves in the output's staging buffer at the last hidden block. -/
def outLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) : Vec F S512x2048 .f32 :=
  VO5.read (Elt F) (VO5.writes (Elt F) VO5.junk (kernelRunLast c i arg2 harg2 arg3 harg3 arg4 harg4 arg5 harg5 arg6 harg6 arg7 harg7 hc1 hc2 hc3 x0 x1 x2 x3 x4 xo).1)

/-! ## The three cases at a grid point -/

/-- A first hidden block's case at point `t`: the body on the point's staging buffers and input blocks. -/
def outFirstAt (c : Dev nD) (t : Fin cfg0.N) (h0 : t.val % 16 = 0) : Vec F S512x2048 .f32 :=
  outFirst c (grid0.coords t) (ms0 t) (hs0 t) (ms1 t) (hs1 t) (ms2 t) (hs2 t) (ms3 t) (hs3 t) (ms4 t) (hs4 t) (ms5 t) (hs5 t)
    ((hcond1 t).mpr h0) (fun h => (hcond2 t).mp h h0) (fun h => by have := (hcond3 t).mp h; omega) (iblk m c 0 t) (iblk m c 1 t) (iblk m c 2 t) (iblk m c 3 t) (iblk m c 4 t)

/-- A later hidden block's case at point `t`, over what the buffer held. -/
def outLaterAt (c : Dev nD) (t : Fin cfg0.N) (h0 : ¬t.val % 16 = 0) (h15 : ¬t.val % 16 = 15) (xo : Vec F S512x2048 .f32) : Vec F S512x2048 .f32 :=
  outLater c (grid0.coords t) (ms0 t) (hs0 t) (ms1 t) (hs1 t) (ms2 t) (hs2 t) (ms3 t) (hs3 t) (ms4 t) (hs4 t) (ms5 t) (hs5 t)
    (fun h => h0 ((hcond1 t).mp h)) ((hcond2 t).mpr h0) (fun h => h15 ((hcond3 t).mp h)) (iblk m c 0 t) (iblk m c 1 t) (iblk m c 2 t) (iblk m c 3 t) (iblk m c 4 t) xo

/-- The last hidden block's case at point `t`, over what the buffer held. -/
def outLastAt (c : Dev nD) (t : Fin cfg0.N) (h0 : ¬t.val % 16 = 0) (h15 : t.val % 16 = 15) (xo : Vec F S512x2048 .f32) : Vec F S512x2048 .f32 :=
  outLast c (grid0.coords t) (ms0 t) (hs0 t) (ms1 t) (hs1 t) (ms2 t) (hs2 t) (ms3 t) (hs3 t) (ms4 t) (hs4 t) (ms5 t) (hs5 t)
    (fun h => h0 ((hcond1 t).mp h)) ((hcond2 t).mpr h0) ((hcond3 t).mpr h15) (iblk m c 0 t) (iblk m c 1 t) (iblk m c 2 t) (iblk m c 3 t) (iblk m c 4 t) xo

/-! ## What the output's buffer holds after each point -/

/-- The accumulation: after point `n` the output's staging buffer holds the case of `n`'s hidden block, a later one
    over what point `n - 1` left. -/
def outsAt (c : Dev nD) : (n : ℕ) → n < cfg0.N → Vec F S512x2048 .f32
  | 0, hn => outFirstAt m c ⟨0, hn⟩ (Nat.zero_mod _)
  | n + 1, hn =>
    if h0 : (n + 1) % 16 = 0 then outFirstAt m c ⟨n + 1, hn⟩ h0
    else if h15 : (n + 1) % 16 = 15 then outLastAt m c ⟨n + 1, hn⟩ h0 h15 (outsAt c n (Nat.lt_of_succ_lt hn))
    else outLaterAt m c ⟨n + 1, hn⟩ h0 h15 (outsAt c n (Nat.lt_of_succ_lt hn))

theorem outsAt_first (c : Dev nD) (t : Fin cfg0.N) (h0 : t.val % 16 = 0) :
    outsAt m c t.val t.isLt = outFirstAt m c t h0 := by
  obtain ⟨n, hn⟩ := t
  cases n with
  | zero => exact rfl
  | succ n => exact (dif_pos h0).trans rfl

theorem outsAt_later (c : Dev nD) (t : Fin cfg0.N) (h0 : ¬t.val % 16 = 0) (h15 : ¬t.val % 16 = 15) :
    outsAt m c t.val t.isLt = outLaterAt m c t h0 h15 (outsAt m c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h15)).trans rfl

theorem outsAt_last (c : Dev nD) (t : Fin cfg0.N) (h0 : ¬t.val % 16 = 0) (h15 : t.val % 16 = 15) :
    outsAt m c t.val t.isLt = outLastAt m c t h0 h15 (outsAt m c (t.val - 1) (Nat.lt_of_le_of_lt (Nat.sub_le _ _) t.isLt)) := by
  obtain ⟨n, hn⟩ := t
  cases n with
  | zero => exact absurd (Nat.zero_mod _) h0
  | succ n => exact ((dif_neg h0).trans (dif_pos h15)).trans rfl

/-! ## The proof data -/

/-- The arrays as the region finds them; after the body each input's buffer at its block, the output's at the
    accumulation; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later hidden block the output's current staging buffer holds what the body left at the point before: the
    point is not the first, and the buffer is written back only after a last hidden block. -/
theorem before_5_kept (c : Dev nD) (t : Fin cfg0.N) (h0 : ¬t.val % 16 = 0) (d) :
    (dats m 0 c).before 5 t d = outsAt m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    live5 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns: the output's buffer as the library states it for a window that may be idle; it never is. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

set_option maxHeartbeats 1600000 in
/-- The body at any point: the inputs' buffers hold their blocks; the hidden block says which case the point is in;
    at a later hidden block the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).leavesExact 5 t = owns (c : Thread nD τ) (ms5 t) fullShare ((dats m 0 c).after 5 t) from by
    unfold Dat.leavesExact; rw [live5 (grid0.coords t)]]
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 16 = 0
  ·
    rw [outsAt_first m c t h0]
    unfold outFirstAt outFirst
    iintro ⟨HΦ, Ho, ⟨%d0, H0⟩, ⟨%d1, H1⟩, ⟨%d2, H2⟩, ⟨%d3, H3⟩, ⟨%d4, H4⟩, ⟨%d5, H5⟩⟩
    iapply ((kernelRunFirst c (grid0.coords t) _ _ _ _ _ _ _ _ _ _ _ _ ((hcond1 t).mpr h0) (fun h => (hcond2 t).mp h h0) (fun h => by have := (hcond3 t).mp h; omega) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · by_cases h15 : t.val % 16 = 15
    ·
      rw [outsAt_last m c t h0 h15]
      simp only [before_5_kept m c t h0]
      unfold outLastAt outLast
      iintro ⟨HΦ, Ho, ⟨%d0, H0⟩, ⟨%d1, H1⟩, ⟨%d2, H2⟩, ⟨%d3, H3⟩, ⟨%d4, H4⟩, ⟨%d5, H5⟩⟩
      iapply ((kernelRunLast c (grid0.coords t) _ _ _ _ _ _ _ _ _ _ _ _ (fun h => h0 ((hcond1 t).mp h)) ((hcond2 t).mpr h0) ((hcond3 t).mpr h15) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    ·
      rw [outsAt_later m c t h0 h15]
      simp only [before_5_kept m c t h0]
      unfold outLaterAt outLater
      iintro ⟨HΦ, Ho, ⟨%d0, H0⟩, ⟨%d1, H1⟩, ⟨%d2, H2⟩, ⟨%d3, H3⟩, ⟨%d4, H4⟩, ⟨%d5, H5⟩⟩
      iapply ((kernelRunLater c (grid0.coords t) _ _ _ _ _ _ _ _ _ _ _ _ (fun h => h0 ((hcond1 t).mp h)) ((hcond2 t).mpr h0) (fun h => h15 ((hcond3 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body
end
-- ==== Proof.IdealBody.Cases.lean ====
/-
  The three control cases of the fused two-layer kernel's body, decided over its 16 × 16 grid.

  A grid point is (row block, hidden block); points are visited row block by row block, the hidden block
  fastest, so point `t` is at hidden block `t % 16`. The body's three conditionals test the hidden block only:
  it is the first (`= 0`: the output block is overwritten), a later one (`> 0`: the contribution is added
  to the output block), the last (`= 15`: the second bias is added). Exactly one of the first two holds at
  every point, so the output block is stored at every point of the grid.
-/
import proofs.«177328_j22694607192381_2_alg».proof.Proof.Gen.KernelIdeal.Frame
import proofs.«177328_j22694607192381_2_alg».proof.Proof.Gen.KernelIdeal.Skeleton
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

/-- The first conditional holds exactly at the first hidden block of each row block. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second holds exactly at the later hidden blocks. -/
theorem hcond2 : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- The third holds exactly at the last hidden block. -/
theorem hcond3 : ∀ t : Fin cfg0.N, k0_cond3 (grid0.coords t) = 1#1 ↔ t.val % 16 = 15 :=
  (by decide +kernel : ∀ t : Fin grid0.N, k0_cond3 (grid0.coords t) = 1#1 ↔ t.val % 16 = 15)

/-- The output block is stored at every point: one of the first two conditionals always holds. -/
theorem live5 : ∀ i : grid0.Coords, cfg0.idle 5 i = false := by
  decide +kernel

/-- One staging buffer of the output window, through which its contents are stated. -/
abbrev VO5 : View sig .tc .vmem S512x2048 .f32 := (Memref.whole cc0_stg5_0 : Memref sig .tc .vmem S512x2048 .f32).view

/-- Each window's current staging buffer at point `t`, as the pipeline passes it to the body, and its wholeness. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)

end Cert.KernelIdeal.Body
end
-- ==== Proof.IdealBody.RunFirst.lean ====
/-
  The body at the FIRST hidden block of a row block: the contribution of this hidden block overwrites the output block
  (whatever the buffer held is loaded and dropped).
-/
import proofs.«177328_j22694607192381_2_alg».proof.Proof.IdealBody.Cases
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at anything — the body runs to a
    continuation that holds the inputs' as they were and the output's with those pieces written. -/
noncomputable def kernelRunFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body
end
-- ==== Proof.IdealBody.RunLater.lean ====
/-
  The body at a LATER hidden block that is not the last: the contribution of this hidden block is added to what the
  output block holds.
-/
import proofs.«177328_j22694607192381_2_alg».proof.Proof.IdealBody.RunFirst
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at its running contents — the body runs to a
    continuation that holds the inputs' as they were and the output's with those pieces written. -/
noncomputable def kernelRunLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body
end
-- ==== Proof.IdealBody.RunLast.lean ====
/-
  The body at the LAST hidden block: the contribution of this hidden block is added to what the output block holds,
  and then the second bias, one row broadcast over the block's rows, is added to that.
-/
import proofs.«177328_j22694607192381_2_alg».proof.Proof.IdealBody.RunLater
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
/-- The pieces the body's stores leave in the output's staging buffer in this case, with the proof that on whole
    staging buffers — the inputs' at their contents, the output's at its running contents — the body runs to a
    continuation that holds the inputs' as they were and the output's with those pieces written. -/
noncomputable def kernelRunLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body
end
-- ==== Proof.IdealBody.Frame.lean ====
/-
  The frame of the fused two-layer kernel: it runs to the end, faults nowhere and leaves its arguments as they were.

  The output block of a row block stays in one staging buffer across that row block's sixteen hidden blocks and is
  written back after the last. What the buffer holds after each point is therefore defined by recursion on the point:
  at the first hidden block what the body's one store leaves; at a later one what the body leaves when it finds there
  what the point before left. The proof data name the inputs' buffers at their blocks and the output's at that
  recursion; the body obligation is the run of the body in the point's case.
-/
import proofs.«177328_j22694607192381_2_alg».proof.Proof.IdealBody.RunLast
import Idealize.ShloMosaic.Lib.Pipeline.Frame
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first hidden block the body's one store is of the whole block, so its pieces cover it. -/
theorem coverFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (y : S512x2048.Idx) :
    ∃ pc ∈ (kernelRunFirst c i arg2 harg2 arg3 harg3 arg4 harg4 arg5 harg5 arg6 harg6 arg7 harg7 hc1 hc2 hc3 x0 x1 x2 x3 x4).1, y ∈ pc.1.set :=
  View.cover_of_tiledL (kernelRunFirst c i arg2 harg2 arg3 harg3 arg4 harg4 arg5 harg5 arg6 harg6 arg7 harg7 hc1 hc2 hc3 x0 x1 x2 x3 x4).1 S512x2048.size (by sl_kernel_rfl) y

/-- What the body leaves in the output's staging buffer at a first hidden block: its pieces read back. -/
def outFirst (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) : Vec F S512x2048 .f32 :=
  VO5.read (Elt F) (VO5.writes (Elt F) VO5.junk (kernelRunFirst c i arg2 harg2 arg3 harg3 arg4 harg4 arg5 harg5 arg6 harg6 arg7 harg7 hc1 hc2 hc3 x0 x1 x2 x3 x4).1)

/-- At a later hidden block the body's one store is of the whole block. -/
theorem coverLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) (y : S512x2048.Idx) :
    ∃ pc ∈ (kernelRunLater c i arg2 harg2 arg3 harg3 arg4 harg4 arg5 harg5 arg6 harg6 arg7 harg7 hc1 hc2 hc3 x0 x1 x2 x3 x4 xo).1, y ∈ pc.1.set :=
  View.cover_of_tiledL (kernelRunLater c i arg2 harg2 arg3 harg3 arg4 harg4 arg5 harg5 arg6 harg6 arg7 harg7 hc1 hc2 hc3 x0 x1 x2 x3 x4 xo).1 S512x2048.size (by sl_kernel_rfl) y

/-- What the body leaves in the output's staging buffer at a later hidden block that is not the last. -/
def outLater (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) : Vec F S512x2048 .f32 :=
  VO5.read (Elt F) (VO5.writes (Elt F) VO5.junk (kernelRunLater c i arg2 harg2 arg3 harg3 arg4 harg4 arg5 harg5 arg6 harg6 arg7 harg7 hc1 hc2 hc3 x0 x1 x2 x3 x4 xo).1)

/-- At the last hidden block both of the body's stores are of the whole block. -/
theorem coverLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) (y : S512x2048.Idx) :
    ∃ pc ∈ (kernelRunLast c i arg2 harg2 arg3 harg3 arg4 harg4 arg5 harg5 arg6 harg6 arg7 harg7 hc1 hc2 hc3 x0 x1 x2 x3 x4 xo).1, y ∈ pc.1.set :=
  View.cover_of_tiledL (kernelRunLast c i arg2 harg2 arg3 harg3 arg4 harg4 arg5 harg5 arg6 harg6 arg7 harg7 hc1 hc2 hc3 x0 x1 x2 x3 x4 xo).1 S512x2048.size (by sl_kernel_rfl) y

/-- What the body leaves in the output's staging buffer at the last hidden block. -/
def outLast (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) : Vec F S512x2048 .f32 :=
  VO5.read (Elt F) (VO5.writes (Elt F) VO5.junk (kernelRunLast c i arg2 harg2 arg3 harg3 arg4 harg4 arg5 harg5 arg6 harg6 arg7 harg7 hc1 hc2 hc3 x0 x1 x2 x3 x4 xo).1)

/-! ## The three cases at a grid point -/

/-- A first hidden block's case at point `t`: the body on the point's staging buffers and input blocks. -/
def outFirstAt (c : Dev nD) (t : Fin cfg0.N) (h0 : t.val % 16 = 0) : Vec F S512x2048 .f32 :=
  outFirst c (grid0.coords t) (ms0 t) (hs0 t) (ms1 t) (hs1 t) (ms2 t) (hs2 t) (ms3 t) (hs3 t) (ms4 t) (hs4 t) (ms5 t) (hs5 t)
    ((hcond1 t).mpr h0) (fun h => (hcond2 t).mp h h0) (fun h => by have := (hcond3 t).mp h; omega) (iblk m c 0 t) (iblk m c 1 t) (iblk m c 2 t) (iblk m c 3 t) (iblk m c 4 t)

/-- A later hidden block's case at point `t`, over what the buffer held. -/
def outLaterAt (c : Dev nD) (t : Fin cfg0.N) (h0 : ¬t.val % 16 = 0) (h15 : ¬t.val % 16 = 15) (xo : Vec F S512x2048 .f32) : Vec F S512x2048 .f32 :=
  outLater c (grid0.coords t) (ms0 t) (hs0 t) (ms1 t) (hs1 t) (ms2 t) (hs2 t) (ms3 t) (hs3 t) (ms4 t) (hs4 t) (ms5 t) (hs5 t)
    (fun h => h0 ((hcond1 t).mp h)) ((hcond2 t).mpr h0) (fun h => h15 ((hcond3 t).mp h)) (iblk m c 0 t) (iblk m c 1 t) (iblk m c 2 t) (iblk m c 3 t) (iblk m c 4 t) xo

/-- The last hidden block's case at point `t`, over what the buffer held. -/
def outLastAt (c : Dev nD) (t : Fin cfg0.N) (h0 : ¬t.val % 16 = 0) (h15 : t.val % 16 = 15) (xo : Vec F S512x2048 .f32) : Vec F S512x2048 .f32 :=
  outLast c (grid0.coords t) (ms0 t) (hs0 t) (ms1 t) (hs1 t) (ms2 t) (hs2 t) (ms3 t) (hs3 t) (ms4 t) (hs4 t) (ms5 t) (hs5 t)
    (fun h => h0 ((hcond1 t).mp h)) ((hcond2 t).mpr h0) ((hcond3 t).mpr h15) (iblk m c 0 t) (iblk m c 1 t) (iblk m c 2 t) (iblk m c 3 t) (iblk m c 4 t) xo

/-! ## What the output's buffer holds after each point -/

/-- The accumulation: after point `n` the output's staging buffer holds the case of `n`'s hidden block, a later one
    over what point `n - 1` left. -/
def outsAt (c : Dev nD) : (n : ℕ) → n < cfg0.N → Vec F S512x2048 .f32
  | 0, hn => outFirstAt m c ⟨0, hn⟩ (Nat.zero_mod _)
  | n + 1, hn =>
    if h0 : (n + 1) % 16 = 0 then outFirstAt m c ⟨n + 1, hn⟩ h0
    else if h15 : (n + 1) % 16 = 15 then outLastAt m c ⟨n + 1, hn⟩ h0 h15 (outsAt c n (Nat.lt_of_succ_lt hn))
    else outLaterAt m c ⟨n + 1, hn⟩ h0 h15 (outsAt c n (Nat.lt_of_succ_lt hn))

theorem outsAt_first (c : Dev nD) (t : Fin cfg0.N) (h0 : t.val % 16 = 0) :
    outsAt m c t.val t.isLt = outFirstAt m c t h0 := by
  obtain ⟨n, hn⟩ := t
  cases n with
  | zero => exact rfl
  | succ n => exact (dif_pos h0).trans rfl

theorem outsAt_later (c : Dev nD) (t : Fin cfg0.N) (h0 : ¬t.val % 16 = 0) (h15 : ¬t.val % 16 = 15) :
    outsAt m c t.val t.isLt = outLaterAt m c t h0 h15 (outsAt m c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h15)).trans rfl

theorem outsAt_last (c : Dev nD) (t : Fin cfg0.N) (h0 : ¬t.val % 16 = 0) (h15 : t.val % 16 = 15) :
    outsAt m c t.val t.isLt = outLastAt m c t h0 h15 (outsAt m c (t.val - 1) (Nat.lt_of_le_of_lt (Nat.sub_le _ _) t.isLt)) := by
  obtain ⟨n, hn⟩ := t
  cases n with
  | zero => exact absurd (Nat.zero_mod _) h0
  | succ n => exact ((dif_neg h0).trans (dif_pos h15)).trans rfl

/-! ## The proof data -/

/-- The arrays as the region finds them; after the body each input's buffer at its block, the output's at the
    accumulation; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later hidden block the output's current staging buffer holds what the body left at the point before: the
    point is not the first, and the buffer is written back only after a last hidden block. -/
theorem before_5_kept (c : Dev nD) (t : Fin cfg0.N) (h0 : ¬t.val % 16 = 0) (d) :
    (dats m 0 c).before 5 t d = outsAt m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    live5 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns: the output's buffer as the library states it for a window that may be idle; it never is. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

set_option maxHeartbeats 1600000 in
/-- The body at any point: the inputs' buffers hold their blocks; the hidden block says which case the point is in;
    at a later hidden block the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).leavesExact 5 t = owns (c : Thread nD τ) (ms5 t) fullShare ((dats m 0 c).after 5 t) from by
    unfold Dat.leavesExact; rw [live5 (grid0.coords t)]]
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 16 = 0
  ·
    rw [outsAt_first m c t h0]
    unfold outFirstAt outFirst
    iintro ⟨HΦ, Ho, ⟨%d0, H0⟩, ⟨%d1, H1⟩, ⟨%d2, H2⟩, ⟨%d3, H3⟩, ⟨%d4, H4⟩, ⟨%d5, H5⟩⟩
    iapply ((kernelRunFirst c (grid0.coords t) _ _ _ _ _ _ _ _ _ _ _ _ ((hcond1 t).mpr h0) (fun h => (hcond2 t).mp h h0) (fun h => by have := (hcond3 t).mp h; omega) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · by_cases h15 : t.val % 16 = 15
    ·
      rw [outsAt_last m c t h0 h15]
      simp only [before_5_kept m c t h0]
      unfold outLastAt outLast
      iintro ⟨HΦ, Ho, ⟨%d0, H0⟩, ⟨%d1, H1⟩, ⟨%d2, H2⟩, ⟨%d3, H3⟩, ⟨%d4, H4⟩, ⟨%d5, H5⟩⟩
      iapply ((kernelRunLast c (grid0.coords t) _ _ _ _ _ _ _ _ _ _ _ _ (fun h => h0 ((hcond1 t).mp h)) ((hcond2 t).mpr h0) ((hcond3 t).mpr h15) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast c _ _ _ _ _ _ _ _ _ _ _ _ _ _ _ _ _ _ _ _ _ _)
    ·
      rw [outsAt_later m c t h0 h15]
      simp only [before_5_kept m c t h0]
      unfold outLaterAt outLater
      iintro ⟨HΦ, Ho, ⟨%d0, H0⟩, ⟨%d1, H1⟩, ⟨%d2, H2⟩, ⟨%d3, H3⟩, ⟨%d4, H4⟩, ⟨%d5, H5⟩⟩
      iapply ((kernelRunLater c (grid0.coords t) _ _ _ _ _ _ _ _ _ _ _ _ (fun h => h0 ((hcond1 t).mp h)) ((hcond2 t).mpr h0) (fun h => h15 ((hcond3 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body
end
-- ==== Proof.IdealValue.Pieces.lean ====
/-
  What each control case leaves in the output block's buffer, as the body's arithmetic of the blocks it loaded: every
  store is of the whole block, so the buffer reads back the stored value; each load is of a whole buffer, so it reads the
  buffer's contents; and where the last case's second store loads the block again, it reads what its first store wrote.
-/
import proofs.«177328_j22694607192381_2_alg».proof.Proof.IdealBody.Frame
import Idealize.ShloMosaic.Lib.Pipeline.Value
import Idealize.ShloMosaic.Lib.Tactic
set_option maxRecDepth 16384

noncomputable section

namespace Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

theorem hz : (![0, 0] : Fin 2 → Nat) = fun _ => 0 := funext fun a => by fin_cases a <;> rfl

/-- At a first hidden block the buffer ends holding the block's contribution. -/
theorem outFirst_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : k0_cond1 i = 1#1) (hc2 : ¬k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) :
    outFirst c i arg2 harg2 arg3 harg3 arg4 harg4 arg5 harg5 arg6 harg6 arg7 harg7 hc1 hc2 hc3 x0 x1 x2 x3 x4 = k0_pay1 x0 x1 x2 x3 := by
  unfold outFirst
  rw [View.read_writes_eq_canon _ _ _ (coverFirst c i arg2 harg2 arg3 harg3 arg4 harg4 arg5 harg5 arg6 harg6 arg7 harg7 hc1 hc2 hc3 x0 x1 x2 x3 x4)]
  unfold kernelRunFirst
  dsimp only
  rw [View.canon_unit_zero hz]
  simp only [View.readAt_eq_ld, harg2.read_unread, harg3.read_unread, harg4.read_unread, harg5.read_unread,
    View.ld_unit_zero (S := S512x2048) hz, View.ld_unit_zero (S := S1x512) hz, View.ld_unit_zero (S := S2048x512) hz]

/-- At a later hidden block that is not the last it ends holding what it held plus the block's contribution. -/
theorem outLater_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : ¬k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    outLater c i arg2 harg2 arg3 harg3 arg4 harg4 arg5 harg5 arg6 harg6 arg7 harg7 hc1 hc2 hc3 x0 x1 x2 x3 x4 xo = k0_pay2 x0 x1 x2 x3 xo := by
  unfold outLater
  rw [View.read_writes_eq_canon _ _ _ (coverLater c i arg2 harg2 arg3 harg3 arg4 harg4 arg5 harg5 arg6 harg6 arg7 harg7 hc1 hc2 hc3 x0 x1 x2 x3 x4 xo)]
  unfold kernelRunLater
  dsimp only
  rw [View.canon_unit_zero hz]
  simp only [View.readAt_eq_ld, harg2.read_unread, harg3.read_unread, harg4.read_unread, harg5.read_unread, harg7.read_unread,
    View.ld_unit_zero (S := S512x2048) hz, View.ld_unit_zero (S := S1x512) hz, View.ld_unit_zero (S := S2048x512) hz]

/-- At the last hidden block it ends holding that sum plus the second bias's row: the second store reads back the first. -/
theorem outLast_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S512x2048 .f32) (harg7 : arg7.IsWhole) (hc1 : ¬k0_cond1 i = 1#1) (hc2 : k0_cond2 i = 1#1) (hc3 : k0_cond3 i = 1#1)
    (x0 : Vec F S512x2048 .f32) (x1 : Vec F S512x2048 .bf16) (x2 : Vec F S1x512 .f32) (x3 : Vec F S2048x512 .bf16) (x4 : Vec F S1x2048 .f32) (xo : Vec F S512x2048 .f32) :
    outLast c i arg2 harg2 arg3 harg3 arg4 harg4 arg5 harg5 arg6 harg6 arg7 harg7 hc1 hc2 hc3 x0 x1 x2 x3 x4 xo = k0_pay3 (k0_pay2 x0 x1 x2 x3 xo) x4 := by
  unfold outLast
  rw [View.read_writes_eq_canon _ _ _ (coverLast c i arg2 harg2 arg3 harg3 arg4 harg4 arg5 harg5 arg6 harg6 arg7 harg7 hc1 hc2 hc3 x0 x1 x2 x3 x4 xo)]
  unfold kernelRunLast
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread,
    View.ld_unit_zero (S := S512x2048) hz, View.ld_unit_zero (S := S1x512) hz, View.ld_unit_zero (S := S2048x512) hz, View.ld_unit_zero (S := S1x2048) hz]

end Cert.KernelIdeal.Body
end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.Spec.lean ====
/-
  The fused two-layer map, as one function of its five argument arrays, on the extended reals.

  For a row x of inputs (2048 features), hidden unit k (of 8192) has activation
      a(k) = (max(Σ_d x(d) · w1(k, d) + b1(k), 0))²
  and output feature n (of 2048) is
      y(n) = Σ_k a(k) · w2(n, k) + b2(n).
  The input rows are laid out as 4 batches of 2048 rows.

  The one law that joins a blockwise evaluation to this: a sum over 8192 hidden units is the sum over 16 blocks of the
  sums over each block's 512 units. Addition on the extended reals is commutative and associative everywhere
  (the infinities included), so no finiteness is needed.
-/
import Idealize.ShloMosaic.PureOps.Ideal
import Idealize.ShloMosaic.PureOps.Ideal.Laws
import Idealize.ShloMosaic.Lib.ValueIdx

noncomputable section

namespace Cert.FusedMlp

open Idealize.ShloMosaic Idealize.ShloMosaic.ValueIdx

/-- The squared rectified activation of a hidden unit: its weights' row `w` against an input row `x`, plus its bias. -/
def act {K : Nat} (x w : Fin K → EReal) (β : EReal) : EReal :=
  max (∑ d : Fin K, x d * w d + β) 0 * max (∑ d : Fin K, x d * w d + β) 0

/-- Output feature `n` of an input row `xr`. -/
def outAt (xr : Fin 2048 → EReal) (w1 : Fin 8192 → Fin 2048 → EReal) (b1 : Fin 8192 → EReal)
    (w2 : Fin 2048 → Fin 8192 → EReal) (b2 : Fin 2048 → EReal) (n : Fin 2048) : EReal :=
  (∑ k : Fin 8192, act xr (w1 k) (b1 k) * w2 n k) + b2 n

/-- The map on the argument arrays as launched: entry (b, s, n) of the [4, 2048, 2048] result. -/
def G (x : (⟨3, ![4, 2048, 2048]⟩ : Shape).Idx → EReal) (w1 : (⟨2, ![8192, 2048]⟩ : Shape).Idx → EReal)
    (b1 : (⟨1, ![8192]⟩ : Shape).Idx → EReal) (w2 : (⟨2, ![2048, 8192]⟩ : Shape).Idx → EReal)
    (b2 : (⟨1, ![2048]⟩ : Shape).Idx → EReal) : (⟨3, ![4, 2048, 2048]⟩ : Shape).Idx → EReal :=
  fun i => outAt (fun d => x (ix3 (i 0) (i 1) d)) (fun k d => w1 (ix2 k d)) (fun k => b1 (ix1 k))
    (fun n k => w2 (ix2 n k)) (fun n => b2 (ix1 n)) (i 2)

/-- Hidden unit `j` of hidden block `h`. -/
abbrev unit (h : Fin 16) (j : Fin 512) : Fin 8192 := ⟨512 * h.val + j.val, by have := h.isLt; have := j.isLt; omega⟩

/-- A sum over the 8192 hidden units is the sum over the 16 blocks of the sums over each block's 512 units. -/
theorem sum_units (f : Fin 8192 → EReal) : ∑ k : Fin 8192, f k = ∑ h : Fin 16, ∑ j : Fin 512, f (unit h j) := by
  rw [← Fintype.sum_prod_type' (f := fun h j => f (unit h j))]
  rw [← (finProdFinEquiv (m := 16) (n := 512)).sum_comp f]
  refine Finset.sum_congr rfl fun p _ => congrArg f (Fin.ext ?_)
  show p.2.val + 512 * p.1.val = 512 * p.1.val + p.2.val
  omega

/-- The contribution of hidden block `h` to output feature `n` of the row. -/
def blockTerm (xr : Fin 2048 → EReal) (w1 : Fin 8192 → Fin 2048 → EReal) (b1 : Fin 8192 → EReal)
    (w2 : Fin 2048 → Fin 8192 → EReal) (n : Fin 2048) (h : Fin 16) : EReal :=
  ∑ j : Fin 512, act xr (w1 (unit h j)) (b1 (unit h j)) * w2 n (unit h j)

/-- The same contribution at a natural number (zero past the last block), so that a running sum can be over a range. -/
def blockTermN (xr : Fin 2048 → EReal) (w1 : Fin 8192 → Fin 2048 → EReal) (b1 : Fin 8192 → EReal)
    (w2 : Fin 2048 → Fin 8192 → EReal) (n : Fin 2048) (h : ℕ) : EReal :=
  if hh : h < 16 then blockTerm xr w1 b1 w2 n ⟨h, hh⟩ else 0

theorem blockTermN_of_lt (xr : Fin 2048 → EReal) (w1 : Fin 8192 → Fin 2048 → EReal) (b1 : Fin 8192 → EReal)
    (w2 : Fin 2048 → Fin 8192 → EReal) (n : Fin 2048) (h : ℕ) (hh : h < 16) :
    blockTermN xr w1 b1 w2 n h = blockTerm xr w1 b1 w2 n ⟨h, hh⟩ := dif_pos hh

/-- The map is the sum of the sixteen blocks' contributions, plus the second bias. -/
theorem outAt_eq_blocks (xr : Fin 2048 → EReal) (w1 : Fin 8192 → Fin 2048 → EReal) (b1 : Fin 8192 → EReal)
    (w2 : Fin 2048 → Fin 8192 → EReal) (b2 : Fin 2048 → EReal) (n : Fin 2048) :
    outAt xr w1 b1 w2 b2 n = (∑ h ∈ Finset.range 16, blockTermN xr w1 b1 w2 n h) + b2 n := by
  unfold outAt
  rw [sum_units, Finset.sum_range]
  refine congrArg (· + b2 n) (Finset.sum_congr rfl fun h _ => ?_)
  rw [blockTermN_of_lt _ _ _ _ _ _ h.isLt]
  rfl

end Cert.FusedMlp

end
-- ==== Proof.IdealValue.Payload.lean ====
/-
  What one run of the kernel's body computes, entry by entry, on the extended reals.

  From the point's blocks — 512 input rows `xb`, the 512 hidden units' first-layer weights `w1b` and biases `b1b`,
  and the 2048 output features' second-layer weights for those units `w2b` — the body forms the contribution
      c(p, q) = Σ_j (max(Σ_d xb(p, d) · w1b(j, d) + b1b(j), 0))² · w2b(q, j)
  of this hidden block to output feature q of row p. A format change is the identity on the extended reals, a product into
  the zero accumulator is the sum of products, and a row broadcast reads its one row. The two accumulating stores add
  entry by entry: the contribution to what the buffer held; and the second bias's row to what the buffer held.
-/
import proofs.«177328_j22694607192381_2_alg».proof.Proof.Gen.KernelIdeal.Skeleton
import proofs.«177328_j22694607192381_2_alg».proof.Proof.LibMatmulRows
import proofs.«177328_j22694607192381_2_alg».proof.Proof.Spec
import Idealize.ShloMosaic.Lib.Pipeline.Value
import Idealize.ShloMosaic.Lib.ValueIdx

set_option maxRecDepth 16384

noncomputable section

namespace Cert.KernelIdeal.Payload

open Idealize.ShloMosaic Idealize.ShloMosaic.ValueIdx Cert.KernelIdeal Cert.KernelIdeal.Gen Cert.FusedMlp

/-- A [1, n] row broadcast over rows, read at (p, j): the row's entry j. -/
theorem rowBcast_apply {a n : Nat} (hn : n ≠ 1) (v : (⟨2, ![1, n]⟩ : Shape).Idx → EReal)
    (h : (⟨2, ![1, n]⟩ : Shape).Broadcasts ⟨2, ![a, n]⟩) (p : Fin a) (j : Fin n) :
    broadcastTo (⟨2, ![a, n]⟩ : Shape) v h (ix2 p j) = v (ix2 0 j) :=
  broadcastTo_apply v h (ix2 p j) (ix2 0 j) (fun d => match d with
    | ⟨0, _⟩ => by show 0 = if (1 : Nat) = 1 then 0 else _; rw [if_pos rfl]
    | ⟨1, _⟩ => by show j.val = if n = 1 then 0 else j.val; rw [if_neg hn])

/-- The first layer's pre-activation of hidden unit j at row p: the row against the unit's weights, plus its bias. -/
theorem preact_apply (v0 : Vec Ideal S512x2048 .f32) (v3 : Vec Ideal S512x2048 .bf16) (v6 : Vec Ideal S1x512 .f32)
    (p : Fin 512) (j : Fin 512) :
    (addf (matmul (φ₁ := .bf16) (φ₂ := .bf16) dot_S512x2048_S512x2048_S512x512_1_1_0_0_n_n none
        (truncf .bf16 (shapeCast S512x2048 v0 shapeCasts_S512x2048_S512x2048) bitsLt_bf16_f32)
        (shapeCast S512x2048 v3 shapeCasts_S512x2048_S512x2048) (constant S512x512 .f32 0x00000000#32))
      (broadcastTo S512x512 (shapeCast S1x512 v6 shapeCasts_S1x512_S1x512) broadcasts_S1x512_S512x512) : FVec Ideal S512x512 .f32) (ix2 p j)
      = ∑ d : Fin 2048, v0 (ix2 p d) * v3 (ix2 j d) + v6 (ix2 0 j) := by
  refine congrArg₂ (· + ·) ?_ ?_
  · refine (Cert.LibMatmulRows.matmul_zero_apply (M := 512) (K := 2048) (N := 512)
      dot_S512x2048_S512x2048_S512x512_1_1_0_0_n_n_wf none _ _ p j).trans ?_
    refine Finset.sum_congr rfl fun d _ => ?_
    exact congrArg₂ (· * ·) (congrFun (shapeCast_self v0 _) (ix2 p d)) (congrFun (shapeCast_self v3 _) (ix2 j d))
  · exact (rowBcast_apply (by decide) _ broadcasts_S1x512_S512x512 p j).trans (congrFun (shapeCast_self v6 _) (ix2 0 j))

/-- The contribution of the point's hidden block, read at (p, q). -/
theorem pay1_apply (v0 : Vec Ideal S512x2048 .f32) (v3 : Vec Ideal S512x2048 .bf16) (v6 : Vec Ideal S1x512 .f32)
    (v14 : Vec Ideal S2048x512 .bf16) (p : Fin 512) (q : Fin 2048) :
    k0_pay1 (F := Ideal) v0 v3 v6 v14 (ix2 p q)
      = ∑ j : Fin 512, act (fun d : Fin 2048 => v0 (ix2 p d)) (fun d => v3 (ix2 j d)) (v6 (ix2 0 j)) * v14 (ix2 q j) := by
  unfold k0_pay1
  refine (Cert.LibMatmulRows.matmul_zero_apply (M := 512) (K := 512) (N := 2048)
    dot_S512x512_S2048x512_S512x2048_1_1_0_0_n_n_wf none _ _ p q).trans ?_
  refine Finset.sum_congr rfl fun j _ => ?_
  refine congrArg₂ (· * ·) ?_ (congrFun (shapeCast_self v14 _) (ix2 q j))
  have hpre := preact_apply v0 v3 v6 p j
  have hz : (Ideal.ofBits .f32 0x00000000#32 : EReal) = 0 := Ideal.ofBits_zero_f32
  show max _ _ * max _ _ = act _ _ _
  unfold act
  exact congrArg₂ (· * ·) (congrArg₂ max hpre hz) (congrArg₂ max hpre hz)

/-- A later hidden block's store: what the buffer held plus the contribution. -/
theorem pay2_apply (v0 : Vec Ideal S512x2048 .f32) (v3 : Vec Ideal S512x2048 .bf16) (v6 : Vec Ideal S1x512 .f32)
    (v14 : Vec Ideal S2048x512 .bf16) (v26 : Vec Ideal S512x2048 .f32) (p : Fin 512) (q : Fin 2048) :
    k0_pay2 (F := Ideal) v0 v3 v6 v14 v26 (ix2 p q) = v26 (ix2 p q) + k0_pay1 (F := Ideal) v0 v3 v6 v14 (ix2 p q) := by
  unfold k0_pay2
  exact congrArg₂ (· + ·) (congrFun (shapeCast_self v26 _) (ix2 p q)) rfl

/-- The last hidden block's second store: what the buffer held plus the second bias's entry q. -/
theorem pay3_apply (v26 : Vec Ideal S512x2048 .f32) (v28 : Vec Ideal S1x2048 .f32) (p : Fin 512) (q : Fin 2048) :
    k0_pay3 (F := Ideal) v26 v28 (ix2 p q) = v26 (ix2 p q) + v28 (ix2 0 q) := by
  unfold k0_pay3
  refine congrArg₂ (· + ·) (congrFun (shapeCast_self v26 _) (ix2 p q)) ?_
  exact (rowBcast_apply (by decide) _ broadcasts_S1x2048_S512x2048 p q).trans (congrFun (shapeCast_self v28 _) (ix2 0 q))

end Cert.KernelIdeal.Payload

end
-- ==== Proof.IdealValue.Blocks.lean ====
/-
  Where each window's block at a grid point sits in its array, and what those arrays are.

  At point t the row block is t / 16 and the hidden block is t % 16. The input rows' block is rows
  512·(t/16) … of the flattened inputs; the first-layer weights' and biases' blocks are hidden units 512·(t%16) …;
  the second-layer weights' block is those units' columns; the second bias is read whole.
  The arrays themselves are the arguments after the five operations before the region: the inputs flattened from
  [4, 2048, 2048] to [8192, 2048] (row 2048·b + s is row s of batch b), both weight matrices after a change of format —
  the identity on the extended reals —, and both biases as one-row matrices.
-/
import proofs.«177328_j22694607192381_2_alg».proof.Proof.IdealBody.Frame
import proofs.«177328_j22694607192381_2_alg».proof.Proof.Spec
import Idealize.ShloMosaic.Lib.Pipeline.Value
import Idealize.ShloMosaic.Lib.StableHlo.Run
import Idealize.ShloMosaic.Lib.ValueIdx
import Idealize.ShloMosaic.Lib.Tactic
set_option maxRecDepth 16384

noncomputable section

namespace Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
open Cert.KernelIdeal.Gen Cert.KernelIdeal.Body Cert.FusedMlp

variable (m : (ℓ : Loc nD τ sig) → Buf (Elt Ideal) ℓ)

theorem N256 : cfg0.N = 256 := N_0

/-! ## The printed index maps, decided over the grid -/

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 16 :=
  (by decide +kernel : ∀ t : Fin grid0.N, _)
theorem idx3 : ∀ t : Fin cfg0.N, win0_3.index t (0 : Fin 2) = 0 ∧ win0_3.index t (1 : Fin 2) = t.val % 16 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 16 ∧ win0_5.index t (1 : Fin 2) = 0 :=
  (by decide +kernel : ∀ t : Fin grid0.N, _)

/-- Row p of point t's row block, as a row of the flattened inputs. -/
def rowOf (t : Fin cfg0.N) (p : Fin 512) : Fin 8192 :=
  ⟨512 * (t.val / 16) + p.val, by have := lt_of_lt_of_eq t.isLt N256; have := p.isLt; omega⟩
/-- Point t's hidden block. -/
def hblk (t : Fin cfg0.N) : Fin 16 := ⟨t.val % 16, Nat.mod_lt _ (by decide)⟩

/-! ## Each window's block at a point, read at a coordinate -/

theorem blk0_apply (c : Dev nD) (t : Fin cfg0.N) (p : Fin 512) (d : Fin 2048) :
    (iblk m c 0 t : Vec Ideal S512x2048 .f32) (ix2 p d) = V m c main_v0 (ix2 (rowOf t p) d) := by
  obtain ⟨e0, e1⟩ := idx0 t
  unfold iblk
  rw [View.read_apply]
  show V m c main_v0 _ = V m c main_v0 _
  congr 1
  funext a; apply Fin.ext
  match a with
  | ⟨0, _⟩ => show win0_0.index t (0 : Fin 2) * 512 + 1 * p.val = 512 * (t.val / 16) + p.val; omega
  | ⟨1, _⟩ => show win0_0.index t (1 : Fin 2) * 2048 + 1 * d.val = d.val; omega

theorem blk1_apply (c : Dev nD) (t : Fin cfg0.N) (j : Fin 512) (d : Fin 2048) :
    (iblk m c 1 t : Vec Ideal S512x2048 .bf16) (ix2 j d) = V m c main_v1 (ix2 (unit (hblk t) j) d) := by
  obtain ⟨e0, e1⟩ := idx1 t
  unfold iblk
  rw [View.read_apply]
  show V m c main_v1 _ = V m c main_v1 _
  congr 1
  funext a; apply Fin.ext
  match a with
  | ⟨0, _⟩ => show win0_1.index t (0 : Fin 2) * 512 + 1 * j.val = 512 * (t.val % 16) + j.val; omega
  | ⟨1, _⟩ => show win0_1.index t (1 : Fin 2) * 2048 + 1 * d.val = d.val; omega

theorem blk2_apply (c : Dev nD) (t : Fin cfg0.N) (j : Fin 512) :
    (iblk m c 2 t : Vec Ideal S1x512 .f32) (ix2 0 j) = V m c main_v3 (ix2 0 (unit (hblk t) j)) := by
  obtain ⟨e0, e1⟩ := idx2 t
  unfold iblk
  rw [View.read_apply]
  show V m c main_v3 _ = V m c main_v3 _
  congr 1
  funext a; apply Fin.ext
  match a with
  | ⟨0, _⟩ => show win0_2.index t (0 : Fin 2) * 1 + 1 * 0 = 0; omega
  | ⟨1, _⟩ => show win0_2.index t (1 : Fin 2) * 512 + 1 * j.val = 512 * (t.val % 16) + j.val; omega

theorem blk3_apply (c : Dev nD) (t : Fin cfg0.N) (q : Fin 2048) (j : Fin 512) :
    (iblk m c 3 t : Vec Ideal S2048x512 .bf16) (ix2 q j) = V m c main_v2 (ix2 q (unit (hblk t) j)) := by
  obtain ⟨e0, e1⟩ := idx3 t
  unfold iblk
  rw [View.read_apply]
  show V m c main_v2 _ = V m c main_v2 _
  congr 1
  funext a; apply Fin.ext
  match a with
  | ⟨0, _⟩ => show win0_3.index t (0 : Fin 2) * 2048 + 1 * q.val = q.val; omega
  | ⟨1, _⟩ => show win0_3.index t (1 : Fin 2) * 512 + 1 * j.val = 512 * (t.val % 16) + j.val; omega

theorem blk4_apply (c : Dev nD) (t : Fin cfg0.N) (q : Fin 2048) :
    (iblk m c 4 t : Vec Ideal S1x2048 .f32) (ix2 0 q) = V m c main_v4 (ix2 0 q) := by
  obtain ⟨e0, e1⟩ := idx4 t
  unfold iblk
  rw [View.read_apply]
  show V m c main_v4 _ = V m c main_v4 _
  congr 1
  funext a; apply Fin.ext
  match a with
  | ⟨0, _⟩ => show win0_4.index t (0 : Fin 2) * 1 + 1 * 0 = 0; omega
  | ⟨1, _⟩ => show win0_4.index t (1 : Fin 2) * 2048 + 1 * q.val = q.val; omega

/-! ## The arrays the region finds, from the arguments -/

/-- Row s of batch b, as a row of the flattened inputs. -/
def flat (b : Fin 4) (s : Fin 2048) : Fin 8192 := ⟨2048 * b.val + s.val, by have := b.isLt; have := s.isLt; omega⟩

theorem V_v0 (c : Dev nD) : (V m c main_v0 : S8192x2048.Idx → EReal)
    = shapeCast S8192x2048 (m ((c : Thread nD τ).loc main_arg0)) shapeCasts_S4x2048x2048_S8192x2048 := by
  show StableHlo.after hostOps0 (fun b => m (c, b)) (Proc.devRef .tc main_v0) = _
  after_results <;> rfl
theorem V_v1 (c : Dev nD) : (V m c main_v1 : S8192x2048.Idx → EReal)
    = truncf (F := Ideal) .bf16 (m ((c : Thread nD τ).loc main_arg1)) bitsLt_bf16_f32 := by
  show StableHlo.after hostOps0 (fun b => m (c, b)) (Proc.devRef .tc main_v1) = _
  after_results <;> rfl
theorem V_v2 (c : Dev nD) : (V m c main_v2 : S2048x8192.Idx → EReal)
    = truncf (F := Ideal) .bf16 (m ((c : Thread nD τ).loc main_arg3)) bitsLt_bf16_f32 := by
  show StableHlo.after hostOps0 (fun b => m (c, b)) (Proc.devRef .tc main_v2) = _
  after_results <;> rfl
theorem V_v3 (c : Dev nD) : (V m c main_v3 : S1x8192.Idx → EReal)
    = shapeCast S1x8192 (m ((c : Thread nD τ).loc main_arg2)) shapeCasts_S8192_S1x8192 := by
  show StableHlo.after hostOps0 (fun b => m (c, b)) (Proc.devRef .tc main_v3) = _
  after_results <;> rfl
theorem V_v4 (c : Dev nD) : (V m c main_v4 : S1x2048.Idx → EReal)
    = shapeCast S1x2048 (m ((c : Thread nD τ).loc main_arg4)) shapeCasts_S2048_S1x2048 := by
  show StableHlo.after hostOps0 (fun b => m (c, b)) (Proc.devRef .tc main_v4) = _
  after_results <;> rfl

/-- The flattened inputs' row 2048·b + s is row s of batch b. -/
theorem X_apply (c : Dev nD) (b : Fin 4) (s : Fin 2048) (d : Fin 2048) :
    (V m c main_v0 : S8192x2048.Idx → EReal) (ix2 (flat b s) d) = m ((c : Thread nD τ).loc main_arg0) (ix3 b s d) := by
  refine (congrFun (V_v0 m c) (ix2 (flat b s) d)).trans ?_
  exact shapeCast_apply _ _ (ix2 (flat b s) d) (ix3 b s d) (by
    rw [Shape.rowMajor_val_three, Shape.rowMajor_val_two]
    show (b.val * 2048 + s.val) * 2048 + d.val = (2048 * b.val + s.val) * 2048 + d.val
    omega)
theorem W1_apply (c : Dev nD) (k : Fin 8192) (d : Fin 2048) :
    (V m c main_v1 : S8192x2048.Idx → EReal) (ix2 k d) = m ((c : Thread nD τ).loc main_arg1) (ix2 k d) :=
  congrFun (V_v1 m c) (ix2 k d)
theorem W2_apply (c : Dev nD) (n : Fin 2048) (k : Fin 8192) :
    (V m c main_v2 : S2048x8192.Idx → EReal) (ix2 n k) = m ((c : Thread nD τ).loc main_arg3) (ix2 n k) :=
  congrFun (V_v2 m c) (ix2 n k)
theorem B1_apply (c : Dev nD) (k : Fin 8192) :
    (V m c main_v3 : S1x8192.Idx → EReal) (ix2 0 k) = m ((c : Thread nD τ).loc main_arg2) (ix1 k) := by
  refine (congrFun (V_v3 m c) (ix2 0 k)).trans ?_
  exact shapeCast_apply _ _ (ix2 0 k) (ix1 k) (by
    rw [Shape.rowMajor_val_one, Shape.rowMajor_val_two]
    show k.val = 0 * 8192 + k.val
    omega)
theorem B2_apply (c : Dev nD) (n : Fin 2048) :
    (V m c main_v4 : S1x2048.Idx → EReal) (ix2 0 n) = m ((c : Thread nD τ).loc main_arg4) (ix1 n) := by
  refine (congrFun (V_v4 m c) (ix2 0 n)).trans ?_
  exact shapeCast_apply _ _ (ix2 0 n) (ix1 n) (by
    rw [Shape.rowMajor_val_one, Shape.rowMajor_val_two]
    show n.val = 0 * 2048 + n.val
    omega)

end Cert.KernelIdeal.Chain
end
-- ==== Proof.IdealValue.Accum.lean ====
/-
  What the output array holds when the region ends.

  After the point at hidden block h of a row block, the output block's buffer holds, at row p and feature q, the sum of the
  contributions of hidden blocks 0 … h to that entry — and, from the last hidden block on, the second bias's entry as well.
  By induction on the point: a first hidden block stores its contribution; a later one adds its contribution to what the
  point before left in the same buffer; the last also adds the bias. The buffer is written back after each row block's last
  hidden block, where the sum is over all sixteen blocks: that is the whole map's value on that row block, and the sixteen
  row blocks tile the array.
-/
import proofs.«177328_j22694607192381_2_alg».proof.Proof.IdealValue.Pieces
import proofs.«177328_j22694607192381_2_alg».proof.Proof.IdealValue.Payload
import proofs.«177328_j22694607192381_2_alg».proof.Proof.IdealValue.Blocks
set_option maxRecDepth 16384

noncomputable section

namespace Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Gen Cert.KernelIdeal.Body Cert.FusedMlp

variable (m : (ℓ : Loc nD τ sig) → Buf (Elt Ideal) ℓ)

/-! ## The arrays the region finds, as the specification's accessors -/

abbrev xrow (c : Dev nD) (r : Fin 8192) : Fin 2048 → EReal := fun d => (V m c main_v0 : S8192x2048.Idx → EReal) (ix2 r d)
abbrev W1 (c : Dev nD) : Fin 8192 → Fin 2048 → EReal := fun k d => (V m c main_v1 : S8192x2048.Idx → EReal) (ix2 k d)
abbrev B1 (c : Dev nD) : Fin 8192 → EReal := fun k => (V m c main_v3 : S1x8192.Idx → EReal) (ix2 0 k)
abbrev W2 (c : Dev nD) : Fin 2048 → Fin 8192 → EReal := fun n k => (V m c main_v2 : S2048x8192.Idx → EReal) (ix2 n k)
abbrev B2 (c : Dev nD) : Fin 2048 → EReal := fun n => (V m c main_v4 : S1x2048.Idx → EReal) (ix2 0 n)

/-- Row p of the row block of point number n (reduced into range, so that it is defined at every number). -/
def rowN (n : ℕ) (p : Fin 512) : Fin 8192 := ⟨(512 * (n / 16) + p.val) % 8192, Nat.mod_lt _ (by decide)⟩

theorem rowOf_eq (t : Fin cfg0.N) (p : Fin 512) : rowOf t p = rowN t.val p :=
  Fin.ext (by
    show 512 * (t.val / 16) + p.val = (512 * (t.val / 16) + p.val) % 8192
    have := lt_of_lt_of_eq t.isLt N256; have := p.isLt; omega)

/-- The contribution of hidden block h to entry (p, q) of point n's row block. -/
abbrev term (c : Dev nD) (n : ℕ) (p : Fin 512) (q : Fin 2048) (h : ℕ) : EReal :=
  blockTermN (xrow m c (rowN n p)) (W1 m c) (B1 m c) (W2 m c) q h

/-- What the output's buffer holds at (p, q) after point n: the contributions so far, and the bias once it is added. -/
def acc (c : Dev nD) (n : ℕ) (p : Fin 512) (q : Fin 2048) : EReal :=
  (∑ h ∈ Finset.range (n % 16 + 1), term m c n p q h) + (if n % 16 = 15 then B2 m c q else 0)

theorem acc_first (c : Dev nD) (n : ℕ) (h0 : n % 16 = 0) (p : Fin 512) (q : Fin 2048) :
    acc m c n p q = term m c n p q (n % 16) := by
  unfold acc
  rw [h0, if_neg (by decide), add_zero, Finset.sum_range_one]

theorem rowN_succ (n : ℕ) (h0 : ¬(n + 1) % 16 = 0) (p : Fin 512) : rowN (n + 1) p = rowN n p :=
  Fin.ext (by
    show (512 * ((n + 1) / 16) + p.val) % 8192 = (512 * (n / 16) + p.val) % 8192
    have : (n + 1) / 16 = n / 16 := by omega
    rw [this])

theorem acc_later (c : Dev nD) (n : ℕ) (h0 : ¬(n + 1) % 16 = 0) (h15 : ¬(n + 1) % 16 = 15) (p : Fin 512) (q : Fin 2048) :
    acc m c (n + 1) p q = acc m c n p q + term m c (n + 1) p q ((n + 1) % 16) := by
  have hm : (n + 1) % 16 = n % 16 + 1 := by omega
  have hn15 : ¬n % 16 = 15 := by omega
  unfold acc
  rw [if_neg h15, if_neg hn15, add_zero, add_zero]
  show (∑ h ∈ Finset.range ((n + 1) % 16 + 1), blockTermN (xrow m c (rowN (n + 1) p)) (W1 m c) (B1 m c) (W2 m c) q h)
    = (∑ h ∈ Finset.range (n % 16 + 1), blockTermN (xrow m c (rowN n p)) (W1 m c) (B1 m c) (W2 m c) q h)
      + blockTermN (xrow m c (rowN (n + 1) p)) (W1 m c) (B1 m c) (W2 m c) q ((n + 1) % 16)
  rw [rowN_succ n h0 p, hm, Finset.sum_range_succ]

theorem acc_last (c : Dev nD) (n : ℕ) (h0 : ¬(n + 1) % 16 = 0) (h15 : (n + 1) % 16 = 15) (p : Fin 512) (q : Fin 2048) :
    acc m c (n + 1) p q = (acc m c n p q + term m c (n + 1) p q ((n + 1) % 16)) + B2 m c q := by
  have hm : (n + 1) % 16 = n % 16 + 1 := by omega
  have hn15 : ¬n % 16 = 15 := by omega
  unfold acc
  rw [if_pos h15, if_neg hn15, add_zero]
  refine congrArg (· + B2 m c q) ?_
  show (∑ h ∈ Finset.range ((n + 1) % 16 + 1), blockTermN (xrow m c (rowN (n + 1) p)) (W1 m c) (B1 m c) (W2 m c) q h)
    = (∑ h ∈ Finset.range (n % 16 + 1), blockTermN (xrow m c (rowN n p)) (W1 m c) (B1 m c) (W2 m c) q h)
      + blockTermN (xrow m c (rowN (n + 1) p)) (W1 m c) (B1 m c) (W2 m c) q ((n + 1) % 16)
  rw [rowN_succ n h0 p, hm, Finset.sum_range_succ]

/-! ## The cases' contents as the body's arithmetic of the point's blocks -/

theorem outFirstAt_eq (c : Dev nD) (t : Fin cfg0.N) (h0 : t.val % 16 = 0) :
    outFirstAt m c t h0 = k0_pay1 (iblk m c 0 t) (iblk m c 1 t) (iblk m c 2 t) (iblk m c 3 t) := by
  unfold outFirstAt; exact outFirst_eq ..

theorem outLaterAt_eq (c : Dev nD) (t : Fin cfg0.N) (h0 : ¬t.val % 16 = 0) (h15 : ¬t.val % 16 = 15) (xo : Vec Ideal S512x2048 .f32) :
    outLaterAt m c t h0 h15 xo = k0_pay2 (iblk m c 0 t) (iblk m c 1 t) (iblk m c 2 t) (iblk m c 3 t) xo := by
  unfold outLaterAt; exact outLater_eq ..

theorem outLastAt_eq (c : Dev nD) (t : Fin cfg0.N) (h0 : ¬t.val % 16 = 0) (h15 : t.val % 16 = 15) (xo : Vec Ideal S512x2048 .f32) :
    outLastAt m c t h0 h15 xo = k0_pay3 (k0_pay2 (iblk m c 0 t) (iblk m c 1 t) (iblk m c 2 t) (iblk m c 3 t) xo) (iblk m c 4 t) := by
  unfold outLastAt; exact outLast_eq ..

/-- The body's contribution at point t, entry (p, q), is the specification's block term of t's hidden block. -/
theorem contrib_eq (c : Dev nD) (t : Fin cfg0.N) (p : Fin 512) (q : Fin 2048) :
    k0_pay1 (F := Ideal) (iblk m c 0 t) (iblk m c 1 t) (iblk m c 2 t) (iblk m c 3 t) (ix2 p q) = term m c t.val p q (t.val % 16) := by
  refine (Payload.pay1_apply (iblk m c 0 t) (iblk m c 1 t) (iblk m c 2 t) (iblk m c 3 t) p q).trans ?_
  show _ = blockTermN (xrow m c (rowN t.val p)) (W1 m c) (B1 m c) (W2 m c) q (t.val % 16)
  rw [blockTermN_of_lt _ _ _ _ _ _ (Nat.mod_lt _ (by decide))]
  unfold blockTerm
  refine Finset.sum_congr rfl fun j _ => ?_
  have h0 : (fun d : Fin 2048 => (iblk m c 0 t : Vec Ideal S512x2048 .f32) (ix2 p d)) = xrow m c (rowN t.val p) :=
    funext fun d => (blk0_apply m c t p d).trans (by rw [rowOf_eq])
  have h1 : (fun d : Fin 2048 => (iblk m c 1 t : Vec Ideal S512x2048 .bf16) (ix2 j d)) = W1 m c (unit (hblk t) j) :=
    funext fun d => blk1_apply m c t j d
  exact congrArg₂ (· * ·) (congr (congrArg₂ act h0 h1) (blk2_apply m c t j)) (blk3_apply m c t q j)

/-! ## The accumulation, by induction on the point -/

theorem outsAt_eq (c : Dev nD) : ∀ (n : ℕ) (h : n < cfg0.N) (p : Fin 512) (q : Fin 2048),
    outsAt m c n h (ix2 p q) = acc m c n p q := by
  intro n
  induction n with
  | zero =>
    intro h p q
    refine (congrFun (outsAt_first m c ⟨0, h⟩ (Nat.zero_mod _)) (ix2 p q)).trans ?_
    refine (congrFun (outFirstAt_eq m c ⟨0, h⟩ (Nat.zero_mod _)) (ix2 p q)).trans ?_
    refine (contrib_eq m c ⟨0, h⟩ p q).trans ?_
    exact (acc_first m c 0 (Nat.zero_mod _) p q).symm
  | succ n ih =>
    intro h p q
    by_cases h0 : (n + 1) % 16 = 0
    · refine (congrFun (outsAt_first m c ⟨n + 1, h⟩ h0) (ix2 p q)).trans ?_
      refine (congrFun (outFirstAt_eq m c ⟨n + 1, h⟩ h0) (ix2 p q)).trans ?_
      refine (contrib_eq m c ⟨n + 1, h⟩ p q).trans ?_
      exact (acc_first m c (n + 1) h0 p q).symm
    · by_cases h15 : (n + 1) % 16 = 15
      · refine (congrFun (outsAt_last m c ⟨n + 1, h⟩ h0 h15) (ix2 p q)).trans ?_
        refine (congrFun (outLastAt_eq m c ⟨n + 1, h⟩ h0 h15 _) (ix2 p q)).trans ?_
        refine (Payload.pay3_apply _ (iblk m c 4 ⟨n + 1, h⟩) p q).trans ?_
        rw [acc_last m c n h0 h15 p q]
        refine congrArg₂ (· + ·) ?_ (blk4_apply m c ⟨n + 1, h⟩ q)
        refine (Payload.pay2_apply (iblk m c 0 ⟨n + 1, h⟩) (iblk m c 1 ⟨n + 1, h⟩) (iblk m c 2 ⟨n + 1, h⟩) (iblk m c 3 ⟨n + 1, h⟩) _ p q).trans ?_
        exact congrArg₂ (· + ·) (ih (Nat.lt_of_succ_lt h) p q) (contrib_eq m c ⟨n + 1, h⟩ p q)
      · refine (congrFun (outsAt_later m c ⟨n + 1, h⟩ h0 h15) (ix2 p q)).trans ?_
        refine (congrFun (outLaterAt_eq m c ⟨n + 1, h⟩ h0 h15 _) (ix2 p q)).trans ?_
        rw [acc_later m c n h0 h15 p q]
        refine (Payload.pay2_apply (iblk m c 0 ⟨n + 1, h⟩) (iblk m c 1 ⟨n + 1, h⟩) (iblk m c 2 ⟨n + 1, h⟩) (iblk m c 3 ⟨n + 1, h⟩) _ p q).trans ?_
        exact congrArg₂ (· + ·) (ih (Nat.lt_of_succ_lt h) p q) (contrib_eq m c ⟨n + 1, h⟩ p q)

/-! ## The output array after the region -/

/-- The whole map on the flattened rows, over the arrays the region finds. -/
def Gout (c : Dev nD) : S8192x2048.Idx → EReal :=
  fun i => outAt (xrow m c (i 0)) (W1 m c) (B1 m c) (W2 m c) (B2 m c) (i 1)

/-- What a row block's last point writes back is that row block of the whole map. -/
theorem flushed_eq (c : Dev nD) (t : Fin cfg0.N) (hf : (cfg0.win 5).flush t = true) :
    (dats m 0 c).flushed 5 t = ((cfg0.win 5).blk t).view.read (Elt Ideal) (Gout m c) := by
  have h15 : t.val % 16 = 15 := (flush0_5 t).mp hf
  obtain ⟨e0, e1⟩ := idx5 t
  have hN := lt_of_lt_of_eq t.isLt N256
  show (cfg0.win 5).cut (grid0.coords t) ((dats m 0 c).after 5 t) = _
  rw [after_5]
  funext j
  obtain ⟨p, q, rfl⟩ : ∃ (p : Fin 512) (q : Fin 2048), j = ix2 p q := ⟨j 0, j 1, eq_ix2 j⟩
  rw [View.read_apply]
  have hemb : ((cfg0.win 5).blk t).view.emb (ix2 p q) = ix2 (rowN t.val p) q := by
    funext a; apply Fin.ext
    match a with
    | ⟨0, _⟩ => show win0_5.index t (0 : Fin 2) * 512 + 1 * p.val = (512 * (t.val / 16) + p.val) % 8192; have := p.isLt; omega
    | ⟨1, _⟩ => show win0_5.index t (1 : Fin 2) * 2048 + 1 * q.val = q.val; omega
  rw [hemb]
  show outsAt m c t.val t.isLt (ix2 p q) = outAt (xrow m c (rowN t.val p)) (W1 m c) (B1 m c) (W2 m c) (B2 m c) q
  rw [outsAt_eq m c t.val t.isLt p q, outAt_eq_blocks]
  unfold acc
  rw [h15, if_pos rfl]

/-- An index of the array is in point t's block iff each coordinate is in the block's range on its axis. -/
theorem mem_blk (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v5).slice (win0_5.rect t)).set ↔ _
  rw [View.set_slice_whole, Rect.mem_set_unit]
  exact Iff.rfl

/-- The output array ends holding the whole map: row r is written back by the last point of row block r / 512. -/
theorem final (c : Dev nD) : (dats m 0 c).arrAt 5 cfg0.N = Gout m c :=
  (dats m 0 c).arrAt_eq_of_cover 5 (Gout m c) (fun t hf => flushed_eq m c t hf) fun i => by
    have hi0 : (i 0).val < 8192 := (i 0).isLt
    have hi1 : (i 1).val < 2048 := (i 1).isLt
    let t : Fin cfg0.N := ⟨16 * ((i 0).val / 512) + 15, by rw [N256]; omega⟩
    have ht : t.val = 16 * ((i 0).val / 512) + 15 := rfl
    obtain ⟨e0, e1⟩ := idx5 t
    refine ⟨t, (flush0_5 t).mpr (by omega), ?_⟩
    rw [mem_blk]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 2048 ≤ (i 1).val ∧ (i 1).val < win0_5.index t (1 : Fin 2) * 2048 + 2048; omega

end Cert.KernelIdeal.Chain
end
-- ==== Proof.IdealValue.Result.lean ====
/-
  The kernel's result is the specification of its five arguments.

  After the region the [8192, 2048] output is viewed as [4, 2048, 2048]: entry (b, s, n) is entry (2048·b + s, n). Over the
  arrays the region finds, that entry is the whole map on flattened row 2048·b + s; and those arrays are the arguments —
  the inputs flattened the same way, the weights under a change of format that is the identity on the extended reals, the
  biases as one-row matrices — so the entry is the specification's, at the arguments as launched.
-/
import proofs.«177328_j22694607192381_2_alg».proof.Proof.IdealValue.Accum
set_option maxRecDepth 16384

noncomputable section

namespace Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
open Cert.KernelIdeal.Gen Cert.KernelIdeal.Body Cert.FusedMlp

variable (m : (ℓ : Loc nD τ sig) → Buf (Elt Ideal) ℓ) (ρ : Dev nD → PrngReg)

/-- The result buffer after the one operation that follows the region: the output array, reshaped. -/
theorem tail_eq (c : Dev nD) :
    Pipeline.afterTail₀ cfgs (dats m) 0 (V0 m) [hostOps1] c main_v6
      = shapeCast S4x2048x2048 (Gout m c) shapeCasts_S8192x2048_S4x2048x2048 := by
  unfold Pipeline.afterTail₀
  show StableHlo.after hostOps1 _ (Proc.devRef .tc main_v6) = _
  after_results
  exact congrArg (fun a => shapeCast S4x2048x2048 a shapeCasts_S8192x2048_S4x2048x2048)
    ((Pipeline.withArrays_arr spec0 launch0.win.arr_inj c _ _ 5).trans (final m c))

/-- The reshaped output is the specification of the arguments as launched. -/
theorem result_eq (c : Dev nD) :
    shapeCast S4x2048x2048 (Gout m c) shapeCasts_S8192x2048_S4x2048x2048
      = G (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, n, rfl⟩ : ∃ (b : Fin 4) (s : Fin 2048) (n : Fin 2048), i = ix3 b s n := ⟨i 0, i 1, i 2, eq_ix3 i⟩
  refine (shapeCast_apply _ _ (ix3 b s n) (ix2 (flat b s) n) (by
    rw [Shape.rowMajor_val_two, Shape.rowMajor_val_three]
    show (2048 * b.val + s.val) * 2048 + n.val = (b.val * 2048 + s.val) * 2048 + n.val
    omega)).trans ?_
  have hx : xrow m c (flat b s) = fun d => (m ((c : Thread nD τ).loc main_arg0)) (ix3 b s d) := funext fun d => X_apply m c b s d
  have h1 : W1 m c = fun k d => (m ((c : Thread nD τ).loc main_arg1)) (ix2 k d) := funext fun k => funext fun d => W1_apply m c k d
  have hb1 : B1 m c = fun k => (m ((c : Thread nD τ).loc main_arg2)) (ix1 k) := funext fun k => B1_apply m c k
  have h2 : W2 m c = fun n k => (m ((c : Thread nD τ).loc main_arg3)) (ix2 n k) := funext fun n => funext fun k => W2_apply m c n k
  have hb2 : B2 m c = fun n => (m ((c : Thread nD τ).loc main_arg4)) (ix1 n) := funext fun n => B2_apply m c n
  show outAt (xrow m c (flat b s)) (W1 m c) (B1 m c) (W2 m c) (B2 m c) n
    = outAt (fun d => (m ((c : Thread nD τ).loc main_arg0)) (ix3 b s d)) (fun k d => (m ((c : Thread nD τ).loc main_arg1)) (ix2 k d)) (fun k => (m ((c : Thread nD τ).loc main_arg2)) (ix1 k))
        (fun n k => (m ((c : Thread nD τ).loc main_arg3)) (ix2 n k)) (fun n => (m ((c : Thread nD τ).loc main_arg4)) (ix1 n)) n
  rw [hx, h1, hb1, h2, hb2]

/-- The run, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v6) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (((h c).2 main_v6 (Pipeline.mem_restRefs_of main_v6 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Chain
end
-- ==== Proof.RefIsG.lean ====
/-
  The reference computes the fused two-layer map: read stage by stage at an index (b, s, n), its result is the
  second-layer sum over all 8192 hidden units of the squared rectified first-layer activations of row (b, s), plus the
  second bias — the specification, entry by entry. The contraction of each product reads the left operand along its
  last axis and the right operand along its second, and each bias is broadcast along the axes it lacks.
-/
import proofs.«177328_j22694607192381_2_alg».proof.Proof.Gen.ReferenceIdeal.Read
import proofs.«177328_j22694607192381_2_alg».proof.Proof.Spec

noncomputable section

namespace Cert.ReferenceIdeal.RefValue

open Idealize.ShloMosaic Idealize.ShloMosaic.ValueIdx Cert.ReferenceIdeal Cert.ReferenceIdeal.Read Cert.FusedMlp

/-- The reference's last stage, as a function of the five arguments, is the specification. -/
theorem ref_is_G (x0 : (⟨S4x2048x2048, .f32⟩ : BufTy).Contents (Elt Ideal)) (x1 : (⟨S8192x2048, .f32⟩ : BufTy).Contents (Elt Ideal))
    (x2 : (⟨S8192, .f32⟩ : BufTy).Contents (Elt Ideal)) (x3 : (⟨S2048x8192, .f32⟩ : BufTy).Contents (Elt Ideal))
    (x4 : (⟨S2048, .f32⟩ : BufTy).Contents (Elt Ideal)) :
    val_main_v9 (F := Ideal) x0 x1 x2 x3 x4 = G x0 x1 x2 x3 x4 := by
  funext i
  obtain ⟨b, s, n, rfl⟩ : ∃ (b : Fin 4) (s : Fin 2048) (n : Fin 2048), i = ix3 b s n := ⟨i 0, i 1, i 2, eq_ix3 i⟩
  have hl6 : ∀ k : Fin 8192, lidx_main_v6 (ix3 b s n) k = ix3 b s k := fun k =>
    funext fun a => Fin.ext (by match a with | ⟨0, _⟩ => rfl | ⟨1, _⟩ => rfl | ⟨2, _⟩ => rfl)
  have hr6 : ∀ k : Fin 8192, ridx_main_v6 (ix3 b s n) k = ix2 n k := fun k =>
    funext fun a => Fin.ext (by match a with | ⟨0, _⟩ => rfl | ⟨1, _⟩ => rfl)
  have hl0 : ∀ (k : Fin 8192) (d : Fin 2048), lidx_main_v0 (ix3 b s k) d = ix3 b s d := fun k d =>
    funext fun a => Fin.ext (by match a with | ⟨0, _⟩ => rfl | ⟨1, _⟩ => rfl | ⟨2, _⟩ => rfl)
  have hr0 : ∀ (k : Fin 8192) (d : Fin 2048), ridx_main_v0 (ix3 b s k) d = ix2 k d := fun k d =>
    funext fun a => Fin.ext (by match a with | ⟨0, _⟩ => rfl | ⟨1, _⟩ => rfl)
  have hb1 : ∀ k : Fin 8192, idx_main_v1 (idx_main_v2 (ix3 b s k)) = ix1 k := fun k =>
    funext fun a => Fin.ext (by match a with | ⟨0, _⟩ => rfl)
  have hb2 : idx_main_v7 (idx_main_v8 (ix3 b s n)) = ix1 n :=
    funext fun a => Fin.ext (by match a with | ⟨0, _⟩ => rfl)
  have hz : (FloatOps.ofBits (F := Ideal) .f32 0x00000000#32 : EReal) = 0 := Ideal.ofBits_zero_f32
  show _ = outAt (fun d => x0 (ix3 b s d)) (fun k d => x1 (ix2 k d)) (fun k => x2 (ix1 k))
    (fun n k => x3 (ix2 n k)) (fun n => x4 (ix1 n)) n
  unfold outAt act
  simp only [val_main_v9_apply, val_main_v6_apply, val_main_v8_apply, val_main_v7_apply, val_main_v5_apply,
    val_main_v4_apply, val_main_v3_apply, val_main_v0_apply, val_main_v2_apply, val_main_v1_apply,
    val_main_call0_v0_apply, val_main_call0_cst_apply, hl6, hr6, hl0, hr0, hb1, hb2, hz,
    Ideal.addf_def, Ideal.mulf_def, Ideal.maximumf_def]

end Cert.ReferenceIdeal.RefValue

end
-- ==== Proof.lean ====
/-
  A fused two-layer perceptron with a squared rectified activation, against its plain reference, on the extended reals.

  For each of 8192 input rows x (4 batches of 2048 rows, 2048 features each), 8192 hidden units and 2048 output features:
      a(k) = (max(Σ_d x(d) · w1(k, d) + b1(k), 0))²,        y(n) = Σ_k a(k) · w2(n, k) + b2(n).
  The reference evaluates this as written. The kernel works on 512 rows and 512 hidden units at a time: for each row block
  it visits the sixteen hidden blocks in turn, forms each block's contribution Σ_{k in the block} a(k) · w2(n, k) to every
  output entry of the row block, overwrites the output block with the first contribution, adds each later one to it, and
  adds the second bias after the last. Its changes of number format are the identity on the extended reals, and a product
  into a zero accumulator is the sum of products, so entry by entry the kernel's result is
      ((…((c₀ + c₁) + c₂) + … ) + c₁₅) + b2(n)
  with c_h the contribution of hidden block h, while the reference's is Σ_k a(k) · w2(n, k) + b2(n). The two are equal
  because a sum over the 8192 hidden units is the sum over the sixteen blocks of each block's sum — addition on the
  extended reals is commutative and associative everywhere, so the inputs' finiteness is not needed for it.

  Each program also runs to the end without a fault and leaves its arguments unchanged. For the kernel this is proved
  for its body in each of the three cases its conditionals distinguish (first, later, last hidden block), the output
  block's buffer being carried from each point to the next within a row block; the word-level kernel and its
  idealization are the same text read at two instances, so the proof is one text at both. The idealization rewrote
  nothing, so there is nothing to preserve.
-/
import proofs.«177328_j22694607192381_2_alg».proof.Defs
import proofs.«177328_j22694607192381_2_alg».proof.Proof.Gen.Kernel
import proofs.«177328_j22694607192381_2_alg».proof.Proof.Gen.KernelIdeal
import proofs.«177328_j22694607192381_2_alg».proof.Proof.Gen.ReferenceIdeal
import proofs.«177328_j22694607192381_2_alg».proof.Proof.Gen.ReferenceIdeal.Run
import proofs.«177328_j22694607192381_2_alg».proof.Proof.Gen.ReferenceIdeal.Read
import proofs.«177328_j22694607192381_2_alg».proof.Proof.Gen.Pre_finite_inputs
import proofs.«177328_j22694607192381_2_alg».proof.Proof.BitsBody.Frame
import proofs.«177328_j22694607192381_2_alg».proof.Proof.IdealBody.Frame
import proofs.«177328_j22694607192381_2_alg».proof.Proof.IdealValue.Result
import proofs.«177328_j22694607192381_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.Body.frame m ρ

/-- So does its idealization. -/
theorem frame_ki : Cert.frame_KernelIdeal := fun m ρ _ => Cert.KernelIdeal.Body.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the specification of those arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
